-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128 .f32) (main_arg7 : FVec F S128x64 .f32) (main_arg8 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S10000x128 : Shape := ⟨2, ![10000, 128]⟩
abbrev S10000x1 : Shape := ⟨2, ![10000, 1]⟩
abbrev S1600000x128 : Shape := ⟨2, ![1600000, 128]⟩
abbrev S1x128 : Shape := ⟨2, ![1, 128]⟩
abbrev S1x64 : Shape := ⟨2, ![1, 64]⟩
abbrev S50000x64 : Shape := ⟨2, ![50000, 64]⟩
abbrev S10000x64 : Shape := ⟨2, ![10000, 64]⟩

abbrev nBuf : Space → Nat
  | .hbm => 63
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S50000, .f32⟩
  | .hbm, ⟨13, _⟩ => ⟨S1600000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S1600000x1, .i32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S50000x128, .f32⟩
  | .hbm, ⟨43, _⟩ => ⟨S1600000x1, .i32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S_, .f32⟩
  | .hbm, ⟨57, _⟩ => ⟨S50000x128, .f32⟩
  | .hbm, ⟨58, _⟩ => ⟨S1600000x1, .i32⟩
  | .hbm, ⟨59, _⟩ => ⟨S50000x128, .f32⟩
  | .hbm, ⟨60, _⟩ => ⟨S1x128, .f32⟩
  | .hbm, ⟨61, _⟩ => ⟨S1x64, .f32⟩
  | .hbm, ⟨62, _⟩ => ⟨S50000x64, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S128x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x1, .f32⟩
  | .local _ .vmem, ⟨10, _⟩ => ⟨S10000x1, .f32⟩
  | .local _ .vmem, ⟨11, _⟩ => ⟨S1x128, .f32⟩
  | .local _ .vmem, ⟨12, _⟩ => ⟨S10000x1, .f32⟩
  | .local _ .vmem, ⟨13, _⟩ => ⟨S10000x1, .f32⟩
  | .local _ .vmem, ⟨14, _⟩ => ⟨S128x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x1, .f32⟩
  | .local _ .vmem, ⟨20, _⟩ => ⟨S10000x1, .f32⟩
  | .local _ .vmem, ⟨21, _⟩ => ⟨S1x128, .f32⟩
  | .local _ .vmem, ⟨22, _⟩ => ⟨S128x64, .f32⟩
  | .local _ .vmem, ⟨23, _⟩ => ⟨S1x64, .f32⟩
  | .local _ .vmem, ⟨24, _⟩ => ⟨S10000x64, .f32⟩
  | .local _ .vmem, ⟨25, _⟩ => ⟨S10000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_c_7 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  inb_S10000x128_S10000x128_0_0 : ∀ a, (![0, 0] : Fin 2 → Nat) a + S10000x128.size a ≤ S10000x128.size a
  h_S10000x128 : 0 < S10000x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S50000x128 : S_.BroadcastsInDim S50000x128 (![] : Fin 0 → Fin S50000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  scatter_S50000_S1600000x1_S1600000_n_0_0_1_wf : ScatterDims.WF S50000 S1600000x1 S1600000 [] [0] [0] 1
  dot_S10000x128_S128x128_S10000x128_1_0_0_1_n_n_wf : DotDims.WF S10000x128 S128x128 S10000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S50000x1.size a
  hwx0_1 : ∀ i : grid0.Coords, EltTy.bits .f32 = 32 ∨ (Rect.block (s := S50000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S50000x128.size a
  hwx0_3 : ∀ i : grid0.Coords, EltTy.bits .f32 = 32 ∨ (Rect.block (s := S50000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S50000x1.size a
  hwx1_1 : ∀ i : grid1.Coords, EltTy.bits .f32 = 32 ∨ (Rect.block (s := S50000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x1.size a ≤ S50000x1.size a
  hwx1_3 : ∀ i : grid1.Coords, EltTy.bits .f32 = 32 ∨ (Rect.block (s := S50000x1) S10000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S50000x128.size a
  hwx1_5 : ∀ i : grid1.Coords, EltTy.bits .f32 = 32 ∨ (Rect.block (s := S50000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S50000x1.size a
  hwx2_1 : ∀ i : grid2.Coords, EltTy.bits .f32 = 32 ∨ (Rect.block (s := S50000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S50000x64.size a
  hwx2_5 : ∀ i : grid2.Coords, EltTy.bits .f32 = 32 ∨ (Rect.block (s := S50000x64) S10000x64.size (cc2_transform_5 i) (hinb2_5 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S10000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v35) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x128 : Shape := ⟨2, ![1600000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 102
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S50000, .f32⟩
  | .hbm, ⟨13, _⟩ => ⟨S1600000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S1600000x1, .i32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S50000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S50000x128, .f32⟩
  | .hbm, ⟨43, _⟩ => ⟨S1600000x1, .i32⟩
  | .hbm, ⟨44, _⟩ => ⟨S50000x128, .f32⟩
  | .hbm, ⟨45, _⟩ => ⟨S50000, .f32⟩
  | .hbm, ⟨46, _⟩ => ⟨S50000x1, .f32⟩
  | .hbm, ⟨47, _⟩ => ⟨S50000x128, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S_, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S1600000, .f32⟩
  | .hbm, ⟨57, _⟩ => ⟨S_, .f32⟩
  | .hbm, ⟨58, _⟩ => ⟨S50000, .f32⟩
  | .hbm, ⟨59, _⟩ => ⟨S1600000x1, .i32⟩
  | .hbm, ⟨60, _⟩ => ⟨S50000, .f32⟩
  | .hbm, ⟨61, _⟩ => ⟨S_, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S1600000x1, .i32⟩
  | .hbm, ⟨68, _⟩ => ⟨S50000, .f32⟩
  | .hbm, ⟨69, _⟩ => ⟨S_, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000, .f32⟩
  | .hbm, ⟨74, _⟩ => ⟨S50000x1, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000x128, .f32⟩
  | .hbm, ⟨87, _⟩ => ⟨S_, .f32⟩
  | .hbm, ⟨88, _⟩ => ⟨S50000x128, .f32⟩
  | .hbm, ⟨89, _⟩ => ⟨S1600000x1, .i32⟩
  | .hbm, ⟨90, _⟩ => ⟨S50000x128, .f32⟩
  | .hbm, ⟨91, _⟩ => ⟨S50000, .f32⟩
  | .hbm, ⟨92, _⟩ => ⟨S50000x1, .f32⟩
  | .hbm, ⟨93, _⟩ => ⟨S50000x128, .f32⟩
  | .hbm, ⟨94, _⟩ => ⟨S50000x128, .f32⟩
  | .hbm, ⟨95, _⟩ => ⟨S1x128, .f32⟩
  | .hbm, ⟨96, _⟩ => ⟨S50000x128, .f32⟩
  | .hbm, ⟨97, _⟩ => ⟨S50000x128, .f32⟩
  | .hbm, ⟨98, _⟩ => ⟨S50000x64, .f32⟩
  | .hbm, ⟨99, _⟩ => ⟨S1x64, .f32⟩
  | .hbm, ⟨100, _⟩ => ⟨S50000x64, .f32⟩
  | .hbm, ⟨101, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call2_cst : Ref sig .tc := ⟨.hbm, 52, rfl⟩
abbrev main_call2_v0 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_cst_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_8 : Ref sig .tc := ⟨.hbm, 61, rfl⟩
abbrev main_call3_v0 : Ref sig .tc := ⟨.hbm, 62, rfl⟩
abbrev main_call3_v1 : Ref sig .tc := ⟨.hbm, 63, rfl⟩
abbrev main_v36 : Ref sig .tc := ⟨.hbm, 64, rfl⟩
abbrev main_cst_9 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_10 : Ref sig .tc := ⟨.hbm, 69, rfl⟩
abbrev main_call4_v0 : Ref sig .tc := ⟨.hbm, 70, rfl⟩
abbrev main_call4_v1 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_c_11 : Ref sig .tc := ⟨.hbm, 78, rfl⟩
abbrev main_v46 : Ref sig .tc := ⟨.hbm, 79, rfl⟩
abbrev main_v47 : Ref sig .tc := ⟨.hbm, 80, rfl⟩
abbrev main_c_12 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_13 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S1600000x1_S1600000_n_0_0_1_wf : ScatterDims.WF S50000 S1600000x1 S1600000 [] [0] [0] 1
  dot_S50000x128_S128x128_S50000x128_1_0_0_1_n_n_wf : DotDims.WF S50000x128 S128x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x64_S50000x64_1_0_0_1_n_n_wf : DotDims.WF S50000x128 S128x64 S50000x64 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KRun.lean ====
/-
  The idealized kernel's run, read to the end: every weakly fair execution of @main terminates without a fault,
  the result array ends at the contents the last pallas_call's write-backs leave (the fold of buffer contents
  through the host stretches and the three pallas_calls, taken at the result's buffer), and the argument arrays
  end as launched.
-/
import proofs.«143690_j72078141162181_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main ends with each unscoped buffer of each core at the last boundary's contents:
    the launch over the program's ten segments (five host stretches, a pallas_call, a stretch, a pallas_call, a
    stretch, a pallas_call), the last thread state read against the final memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- The run with the result named: the result array at what the third pallas_call's write-backs leave of it, the
    arguments as launched. -/
theorem run_result : θ_run defs (onTc (τ := τ) (main (F := F))) ⟨m, fun _ => 0, ρ⟩ (fun r => ∀ c : Dev nD,
      r.2.mem ((c.tc : Thread nD τ).loc main_v38) = (dat2 (V9 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun s h c =>
      ⟨(h c _ (mem_uc main_v38 (by decide))).trans (W10_arr m ρ c 5),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)
    (run_all m ρ)

end Cert.KernelIdeal.Whole

end
-- ==== Proof.KEntry.lean ====
/-
  What the idealized kernel's buffers hold when its first pallas_call is entered, as functions of the arrays @main was
  launched with: every argument array is still as launched (no host operation writes one), and the two degree columns
  are the reference's own terms of the edge arrays — the count of each node's outgoing (incoming) edges by a
  scatter-add of ones, clamped below at one, the reciprocal square root, as a column.

  The five host stretches before the first pallas_call are read one at a time, each from ARBITRARY contents: what a
  stretch leaves in the buffers it writes as a term of what it found, and that it leaves the others alone. The edge
  counts are never opened: each is the same scatter-add on both sides and is carried as one value.
-/
import proofs.«143690_j72078141162181_1_alg».proof.Proof.Gen.KernelIdeal.Frame
import proofs.«143690_j72078141162181_1_alg».proof.Proof.Gen.ReferenceIdeal.Read
import Idealize.ShloMosaic.Lib.StableHlo.Run

set_option maxRecDepth 16384

noncomputable section

namespace Cert.KernelIdeal.Entry

open Cert.KernelIdeal Cert.KernelIdeal.Gen
open Cert.ReferenceIdeal.Read
open Idealize.ShloMosaic Idealize.ShloMosaic.TcCoe Idealize.ShloMosaic.StableHlo Idealize.SL.Sem

/-! ## The stretches, one at a time, from any contents -/

section Stretches

variable (W : Valuation τ sig (Elt Ideal))

/-- The first stretch counts the outgoing edges. -/
theorem s0_v3 : (StableHlo.after hostOps0 W (Proc.devRef .tc main_v3) : S50000.Idx → EReal)
    = Host.scatterAdd (F := Ideal) scatter_S50000_S1600000x1_S1600000_n_0_0_1
        (broadcastInDim S50000 ![] bcast_S_S50000 (constant S_ .f32 0x00000000#32))
        (broadcastInDim S1600000x1 ![0] bcast_S1600000_S1600000x1_0 (W (Proc.devRef .tc main_arg1) : S1600000.Idx → BitVec 32))
        (broadcastInDim S1600000 ![] bcast_S_S1600000 (constant S_ .f32 0x3F800000#32)) := by
  after_results <;> rfl
theorem s0_cst1 : (StableHlo.after hostOps0 W (Proc.devRef .tc main_cst_1) : S_.Idx → EReal) = constant (F := Ideal) S_ .f32 0x3F800000#32 := by
  after_results <;> rfl
theorem s0_v0 : (StableHlo.after hostOps0 W (Proc.devRef .tc main_v0) : S1600000.Idx → EReal)
    = broadcastInDim S1600000 ![] bcast_S_S1600000 (constant (F := Ideal) S_ .f32 0x3F800000#32) := by
  after_results <;> rfl
theorem s0_arg2 : StableHlo.after hostOps0 W (Proc.devRef .tc main_arg2) = W (Proc.devRef .tc main_arg2) := by
  after_results <;> rfl

/-- The first clamp: the count, at least one. -/
theorem s1_v4 : (StableHlo.after hostOps0_1 W (Proc.devRef .tc main_v4) : S50000.Idx → EReal)
    = maximumf (F := Ideal) (φ := .f32) (broadcastInDim S50000 ![] bcast_S_S50000 (id (W (Proc.devRef .tc main_cst_1) : S_.Idx → EReal)))
        (W (Proc.devRef .tc main_v3) : S50000.Idx → EReal) := by
  after_results <;> rfl
theorem s1_v0 : StableHlo.after hostOps0_1 W (Proc.devRef .tc main_v0) = W (Proc.devRef .tc main_v0) := by
  after_results <;> rfl
theorem s1_arg2 : StableHlo.after hostOps0_1 W (Proc.devRef .tc main_arg2) = W (Proc.devRef .tc main_arg2) := by
  after_results <;> rfl

/-- The third stretch counts the incoming edges. -/
theorem s2_v7 : (StableHlo.after hostOps0_2 W (Proc.devRef .tc main_v7) : S50000.Idx → EReal)
    = Host.scatterAdd (F := Ideal) scatter_S50000_S1600000x1_S1600000_n_0_0_1
        (broadcastInDim S50000 ![] bcast_S_S50000 (constant S_ .f32 0x00000000#32))
        (broadcastInDim S1600000x1 ![0] bcast_S1600000_S1600000x1_0 (W (Proc.devRef .tc main_arg2) : S1600000.Idx → BitVec 32))
        (W (Proc.devRef .tc main_v0) : S1600000.Idx → EReal) := by
  after_results <;> rfl
theorem s2_cst3 : (StableHlo.after hostOps0_2 W (Proc.devRef .tc main_cst_3) : S_.Idx → EReal) = constant (F := Ideal) S_ .f32 0x3F800000#32 := by
  after_results <;> rfl
theorem s2_v4 : StableHlo.after hostOps0_2 W (Proc.devRef .tc main_v4) = W (Proc.devRef .tc main_v4) := by
  after_results <;> rfl

/-- The second clamp. -/
theorem s3_v8 : (StableHlo.after hostOps0_3 W (Proc.devRef .tc main_v8) : S50000.Idx → EReal)
    = maximumf (F := Ideal) (φ := .f32) (broadcastInDim S50000 ![] bcast_S_S50000 (id (W (Proc.devRef .tc main_cst_3) : S_.Idx → EReal)))
        (W (Proc.devRef .tc main_v7) : S50000.Idx → EReal) := by
  after_results <;> rfl
theorem s3_v4 : StableHlo.after hostOps0_3 W (Proc.devRef .tc main_v4) = W (Proc.devRef .tc main_v4) := by
  after_results <;> rfl

/-- The last stretch: the reciprocal square roots, as columns. -/
theorem s4_v10 : (StableHlo.after hostOps0_4 W (Proc.devRef .tc main_v10) : S50000x1.Idx → EReal)
    = broadcastInDim S50000x1 ![0] bcast_S50000_S50000x1_0 (Host.rsqrt (F := Ideal) (φ := .f32) (W (Proc.devRef .tc main_v4) : S50000.Idx → EReal)) := by
  after_results <;> rfl
theorem s4_v12 : (StableHlo.after hostOps0_4 W (Proc.devRef .tc main_v12) : S50000x1.Idx → EReal)
    = broadcastInDim S50000x1 ![0] bcast_S50000_S50000x1_0 (Host.rsqrt (F := Ideal) (φ := .f32) (W (Proc.devRef .tc main_v8) : S50000.Idx → EReal)) := by
  after_results <;> rfl

end Stretches

/-! ## The same terms in the reference's words -/

/-- The count of edges at each node is the same scatter-add of ones in both programs. -/
theorem count_out (x : IVec S1600000 32) :
    (Host.scatterAdd (F := Ideal) scatter_S50000_S1600000x1_S1600000_n_0_0_1
      (broadcastInDim S50000 ![] bcast_S_S50000 (constant S_ .f32 0x00000000#32))
      (broadcastInDim S1600000x1 ![0] bcast_S1600000_S1600000x1_0 x)
      (broadcastInDim S1600000 ![] bcast_S_S1600000 (constant S_ .f32 0x3F800000#32)))
    = val_main_v3 (F := Ideal) x := by
  unfold val_main_v3 val_main_v1 val_main_cst_0 val_main_v2 val_main_v0 val_main_cst
  rfl
theorem count_in (x : IVec S1600000 32) :
    (Host.scatterAdd (F := Ideal) scatter_S50000_S1600000x1_S1600000_n_0_0_1
      (broadcastInDim S50000 ![] bcast_S_S50000 (constant S_ .f32 0x00000000#32))
      (broadcastInDim S1600000x1 ![0] bcast_S1600000_S1600000x1_0 x)
      (broadcastInDim S1600000 ![] bcast_S_S1600000 (constant S_ .f32 0x3F800000#32)))
    = val_main_v7 (F := Ideal) x := by
  unfold val_main_v7 val_main_v5 val_main_cst_2 val_main_v6 val_main_v0 val_main_cst
  rfl

/-- A count clamped below at one, its reciprocal square root, as a column — the reference's out-degree column of the count. -/
theorem col_out (x : IVec S1600000 32) :
    broadcastInDim S50000x1 ![0] bcast_S50000_S50000x1_0 (Host.rsqrt (F := Ideal) (φ := .f32)
      (maximumf (broadcastInDim S50000 ![] bcast_S_S50000 (id (constant (F := Ideal) S_ .f32 0x3F800000#32))) (val_main_v3 (F := Ideal) x)))
    = val_main_v10 (F := Ideal) x := by
  unfold val_main_v10 val_main_v9 val_main_v4 val_main_call0_v1 val_main_call0_v0 val_main_cst_1
  generalize val_main_v3 (F := Ideal) x = cnt
  rfl
theorem col_in (x : IVec S1600000 32) :
    broadcastInDim S50000x1 ![0] bcast_S50000_S50000x1_0 (Host.rsqrt (F := Ideal) (φ := .f32)
      (maximumf (broadcastInDim S50000 ![] bcast_S_S50000 (id (constant (F := Ideal) S_ .f32 0x3F800000#32))) (val_main_v7 (F := Ideal) x)))
    = val_main_v25 (F := Ideal) x := by
  unfold val_main_v25 val_main_v24 val_main_v8 val_main_call1_v1 val_main_call1_v0 val_main_cst_3
  generalize val_main_v7 (F := Ideal) x = cnt
  rfl

/-- The reference computes each degree column once per layer; the two are one term. -/
theorem outcol_again (x : IVec S1600000 32) : val_main_v42 (F := Ideal) x = val_main_v10 (F := Ideal) x := by
  unfold val_main_v42 val_main_v41 val_main_v36 val_main_v10 val_main_v9 val_main_v4
  have e : val_main_v35 (F := Ideal) x = val_main_v3 (F := Ideal) x := by
    unfold val_main_v35 val_main_v33 val_main_cst_7 val_main_v34 val_main_v32 val_main_cst_6 val_main_v3 val_main_v1 val_main_cst_0 val_main_v2 val_main_v0 val_main_cst
    rfl
  rw [e]
  generalize val_main_v3 (F := Ideal) x = cnt
  rfl
theorem incol_again (x : IVec S1600000 32) : val_main_v57 (F := Ideal) x = val_main_v25 (F := Ideal) x := by
  unfold val_main_v57 val_main_v56 val_main_v40 val_main_v25 val_main_v24 val_main_v8
  have e : val_main_v39 (F := Ideal) x = val_main_v7 (F := Ideal) x := by
    unfold val_main_v39 val_main_v37 val_main_cst_9 val_main_v38 val_main_v32 val_main_cst_6 val_main_v7 val_main_v5 val_main_cst_2 val_main_v6 val_main_v0 val_main_cst
    rfl
  rw [e]
  generalize val_main_v7 (F := Ideal) x = cnt
  rfl

/-! ## At the first pallas_call's entry -/

variable (m : (ℓ : Loc nD τ sig) → Buf (Elt Ideal) ℓ) (ρ : Dev nD → PrngReg) (c : Dev nD)

/-- Argument 0 is as launched when the first pallas_call is entered. -/
theorem V5_arg0 : V5 m ρ c main_arg0 = m ((c : Thread nD τ).loc main_arg0) := by
  show StableHlo.after hostOps0_4 (StableHlo.after hostOps0_3 (StableHlo.after hostOps0_2 (StableHlo.after hostOps0_1 (StableHlo.after hostOps0 (W0 m ρ c))))) (Proc.devRef .tc main_arg0) = _
  after_results <;> rfl

/-- Argument 1 is as launched when the first pallas_call is entered. -/
theorem V5_arg1 : V5 m ρ c main_arg1 = m ((c : Thread nD τ).loc main_arg1) := by
  show StableHlo.after hostOps0_4 (StableHlo.after hostOps0_3 (StableHlo.after hostOps0_2 (StableHlo.after hostOps0_1 (StableHlo.after hostOps0 (W0 m ρ c))))) (Proc.devRef .tc main_arg1) = _
  after_results <;> rfl

/-- Argument 2 is as launched when the first pallas_call is entered. -/
theorem V5_arg2 : V5 m ρ c main_arg2 = m ((c : Thread nD τ).loc main_arg2) := by
  show StableHlo.after hostOps0_4 (StableHlo.after hostOps0_3 (StableHlo.after hostOps0_2 (StableHlo.after hostOps0_1 (StableHlo.after hostOps0 (W0 m ρ c))))) (Proc.devRef .tc main_arg2) = _
  after_results <;> rfl

/-- Argument 3 is as launched when the first pallas_call is entered. -/
theorem V5_arg3 : V5 m ρ c main_arg3 = m ((c : Thread nD τ).loc main_arg3) := by
  show StableHlo.after hostOps0_4 (StableHlo.after hostOps0_3 (StableHlo.after hostOps0_2 (StableHlo.after hostOps0_1 (StableHlo.after hostOps0 (W0 m ρ c))))) (Proc.devRef .tc main_arg3) = _
  after_results <;> rfl

/-- Argument 4 is as launched when the first pallas_call is entered. -/
theorem V5_arg4 : V5 m ρ c main_arg4 = m ((c : Thread nD τ).loc main_arg4) := by
  show StableHlo.after hostOps0_4 (StableHlo.after hostOps0_3 (StableHlo.after hostOps0_2 (StableHlo.after hostOps0_1 (StableHlo.after hostOps0 (W0 m ρ c))))) (Proc.devRef .tc main_arg4) = _
  after_results <;> rfl

/-- Argument 5 is as launched when the first pallas_call is entered. -/
theorem V5_arg5 : V5 m ρ c main_arg5 = m ((c : Thread nD τ).loc main_arg5) := by
  show StableHlo.after hostOps0_4 (StableHlo.after hostOps0_3 (StableHlo.after hostOps0_2 (StableHlo.after hostOps0_1 (StableHlo.after hostOps0 (W0 m ρ c))))) (Proc.devRef .tc main_arg5) = _
  after_results <;> rfl

/-- Argument 6 is as launched when the first pallas_call is entered. -/
theorem V5_arg6 : V5 m ρ c main_arg6 = m ((c : Thread nD τ).loc main_arg6) := by
  show StableHlo.after hostOps0_4 (StableHlo.after hostOps0_3 (StableHlo.after hostOps0_2 (StableHlo.after hostOps0_1 (StableHlo.after hostOps0 (W0 m ρ c))))) (Proc.devRef .tc main_arg6) = _
  after_results <;> rfl

/-- Argument 7 is as launched when the first pallas_call is entered. -/
theorem V5_arg7 : V5 m ρ c main_arg7 = m ((c : Thread nD τ).loc main_arg7) := by
  show StableHlo.after hostOps0_4 (StableHlo.after hostOps0_3 (StableHlo.after hostOps0_2 (StableHlo.after hostOps0_1 (StableHlo.after hostOps0 (W0 m ρ c))))) (Proc.devRef .tc main_arg7) = _
  after_results <;> rfl

/-- Argument 8 is as launched when the first pallas_call is entered. -/
theorem V5_arg8 : V5 m ρ c main_arg8 = m ((c : Thread nD τ).loc main_arg8) := by
  show StableHlo.after hostOps0_4 (StableHlo.after hostOps0_3 (StableHlo.after hostOps0_2 (StableHlo.after hostOps0_1 (StableHlo.after hostOps0 (W0 m ρ c))))) (Proc.devRef .tc main_arg8) = _
  after_results <;> rfl

/-- The clamped out-degree count, after the second stretch. -/
theorem W2_v4 : (W2 m ρ c (Proc.devRef .tc main_v4) : S50000.Idx → EReal)
    = maximumf (F := Ideal) (φ := .f32) (broadcastInDim S50000 ![] bcast_S_S50000 (id (constant (F := Ideal) S_ .f32 0x3F800000#32)))
        (val_main_v3 (F := Ideal) (m ((c : Thread nD τ).loc main_arg1))) := by
  refine (s1_v4 (W1 m ρ c)).trans ?_
  rw [show (W1 m ρ c (Proc.devRef .tc main_cst_1) : S_.Idx → EReal) = _ from s0_cst1 (W0 m ρ c),
    show (W1 m ρ c (Proc.devRef .tc main_v3) : S50000.Idx → EReal) = _ from s0_v3 (W0 m ρ c)]
  rw [count_out]

/-- The out-degree column: the reference's term of the source-node array. -/
theorem V5_v10 : V5 m ρ c main_v10 = val_main_v10 (F := Ideal) (m ((c : Thread nD τ).loc main_arg1)) := by
  refine (s4_v10 (W4 m ρ c)).trans ?_
  rw [show (W4 m ρ c (Proc.devRef .tc main_v4) : S50000.Idx → EReal) = _ from
    (s3_v4 (W3 m ρ c)).trans ((s2_v4 (W2 m ρ c)).trans (W2_v4 m ρ c))]
  exact col_out _

/-- The clamped in-degree count, after the fourth stretch. -/
theorem W4_v8 : (W4 m ρ c (Proc.devRef .tc main_v8) : S50000.Idx → EReal)
    = maximumf (F := Ideal) (φ := .f32) (broadcastInDim S50000 ![] bcast_S_S50000 (id (constant (F := Ideal) S_ .f32 0x3F800000#32)))
        (val_main_v7 (F := Ideal) (m ((c : Thread nD τ).loc main_arg2))) := by
  refine (s3_v8 (W3 m ρ c)).trans ?_
  rw [show (W3 m ρ c (Proc.devRef .tc main_cst_3) : S_.Idx → EReal) = _ from s2_cst3 (W2 m ρ c),
    show (W3 m ρ c (Proc.devRef .tc main_v7) : S50000.Idx → EReal) = _ from s2_v7 (W2 m ρ c)]
  rw [show W2 m ρ c (Proc.devRef .tc main_arg2) = _ from (s1_arg2 (W1 m ρ c)).trans (s0_arg2 (W0 m ρ c)),
    show (W2 m ρ c (Proc.devRef .tc main_v0) : S1600000.Idx → EReal) = _ from (s1_v0 (W1 m ρ c)).trans (s0_v0 (W0 m ρ c))]
  rw [count_in]

/-- The in-degree column: the reference's term of the destination-node array. -/
theorem V5_v12 : V5 m ρ c main_v12 = val_main_v25 (F := Ideal) (m ((c : Thread nD τ).loc main_arg2)) := by
  refine (s4_v12 (W4 m ρ c)).trans ?_
  rw [W4_v8 m ρ c]
  exact col_in _

end Cert.KernelIdeal.Entry

end
-- ==== Proof.Rows.lean ====
/-
  The row-wise arithmetic of a two-layer graph convolution, over the extended reals, stated once for any number
  of rows: an entry of each dense stage depends on ONE row of the node table (and on the small weight and bias
  arrays), so the stage computed on a block of rows is that block of the stage computed on the whole table.

  * `lin`  — a row scaled by its degree factor, then multiplied by the weights:
               out[r, q] = ∑ₖ (X[r, k] · s[r]) · W[k, q];
  * `mid`  — the aggregated row scaled by the in-degree factor, biased, clamped below at zero, scaled by the
               out-degree factor, then multiplied by the weights:
               out[r, q] = ∑ₖ (max (M[r, k] · sᵢ[r] + b[k]) 0 · sₒ[r]) · W[k, q];
  * `last` — the aggregated row scaled, biased, multiplied by the projection, and biased again:
               out[r, q] = (∑ₖ (M[r, k] · sᵢ[r] + b[k]) · W[k, q]) + c[q].

  No law of arithmetic is used anywhere: the two programs compute these sums with the same factors in the same
  order of operations, and only the tiling of the rows differs.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.GraphConv

open Idealize.ShloMosaic Idealize.ShloMosaic.ValueIdx

/-- An array of rank two from its entries by row and column. -/
def ofEntries {R C : Nat} (f : Fin R → Fin C → EReal) : (⟨2, ![R, C]⟩ : Shape).Idx → EReal :=
  fun i => f ⟨(i 0).val, (i 0).isLt⟩ ⟨(i 1).val, (i 1).isLt⟩

theorem ofEntries_ix2 {R C : Nat} (f : Fin R → Fin C → EReal) (r : Fin R) (q : Fin C) :
    ofEntries f (ix2 r q) = f r q := rfl

/-- The zero the clamp compares with, as the word both programs print for it. -/
abbrev zeroWord : EReal := Ideal.ofBits .f32 0x00000000#32

/-- A row scaled by its factor, times the weights. -/
def lin {R D : Nat} (X : (⟨2, ![R, 128]⟩ : Shape).Idx → EReal) (S : (⟨2, ![R, 1]⟩ : Shape).Idx → EReal)
    (W : (⟨2, ![128, D]⟩ : Shape).Idx → EReal) (r : Fin R) (q : Fin D) : EReal :=
  ∑ k : Fin 128, (X (ix2 r k) * S (ix2 r (0 : Fin 1))) * W (ix2 k q)

/-- An aggregated row scaled, biased, clamped at zero, scaled again, times the weights. -/
def mid {R D : Nat} (M : (⟨2, ![R, 128]⟩ : Shape).Idx → EReal) (SI : (⟨2, ![R, 1]⟩ : Shape).Idx → EReal)
    (B : (⟨2, ![1, 128]⟩ : Shape).Idx → EReal) (SO : (⟨2, ![R, 1]⟩ : Shape).Idx → EReal)
    (W : (⟨2, ![128, D]⟩ : Shape).Idx → EReal) (r : Fin R) (q : Fin D) : EReal :=
  ∑ k : Fin 128, (max (M (ix2 r k) * SI (ix2 r (0 : Fin 1)) + B (ix2 (0 : Fin 1) k)) zeroWord * SO (ix2 r (0 : Fin 1))) * W (ix2 k q)

/-- An aggregated row scaled and biased, times the projection, plus the last bias. -/
def last {R D : Nat} (M : (⟨2, ![R, 128]⟩ : Shape).Idx → EReal) (SI : (⟨2, ![R, 1]⟩ : Shape).Idx → EReal)
    (B : (⟨2, ![1, 128]⟩ : Shape).Idx → EReal) (W : (⟨2, ![128, D]⟩ : Shape).Idx → EReal)
    (C : (⟨2, ![1, D]⟩ : Shape).Idx → EReal) (r : Fin R) (q : Fin D) : EReal :=
  (∑ k : Fin 128, (M (ix2 r k) * SI (ix2 r (0 : Fin 1)) + B (ix2 (0 : Fin 1) k)) * W (ix2 k q)) + C (ix2 (0 : Fin 1) q)

/-- A stage on a block of rows is the block of the stage: row `p` of the block being row `r` of the table, the small
    arrays the same entry by entry. -/
theorem lin_rows {R R' D : Nat} {Xb : (⟨2, ![R', 128]⟩ : Shape).Idx → EReal} {Sb : (⟨2, ![R', 1]⟩ : Shape).Idx → EReal}
    {Wb : (⟨2, ![128, D]⟩ : Shape).Idx → EReal}
    {X : (⟨2, ![R, 128]⟩ : Shape).Idx → EReal} {S : (⟨2, ![R, 1]⟩ : Shape).Idx → EReal}
    {W : (⟨2, ![128, D]⟩ : Shape).Idx → EReal} (p : Fin R') (r : Fin R) (q : Fin D)
    (hX : ∀ k : Fin 128, Xb (ix2 p k) = X (ix2 r k)) (hS : Sb (ix2 p (0 : Fin 1)) = S (ix2 r (0 : Fin 1)))
    (hW : ∀ k : Fin 128, Wb (ix2 k q) = W (ix2 k q)) :
    lin Xb Sb Wb p q = lin X S W r q := by
  unfold lin
  refine Finset.sum_congr rfl fun k _ => ?_
  rw [hX k, hS, hW k]

theorem mid_rows {R R' D : Nat} {Mb : (⟨2, ![R', 128]⟩ : Shape).Idx → EReal} {SIb SOb : (⟨2, ![R', 1]⟩ : Shape).Idx → EReal}
    {Bb : (⟨2, ![1, 128]⟩ : Shape).Idx → EReal} {Wb : (⟨2, ![128, D]⟩ : Shape).Idx → EReal}
    {M : (⟨2, ![R, 128]⟩ : Shape).Idx → EReal} {SI SO : (⟨2, ![R, 1]⟩ : Shape).Idx → EReal}
    {B : (⟨2, ![1, 128]⟩ : Shape).Idx → EReal} {W : (⟨2, ![128, D]⟩ : Shape).Idx → EReal} (p : Fin R') (r : Fin R) (q : Fin D)
    (hM : ∀ k : Fin 128, Mb (ix2 p k) = M (ix2 r k)) (hSI : SIb (ix2 p (0 : Fin 1)) = SI (ix2 r (0 : Fin 1)))
    (hB : ∀ k : Fin 128, Bb (ix2 (0 : Fin 1) k) = B (ix2 (0 : Fin 1) k))
    (hSO : SOb (ix2 p (0 : Fin 1)) = SO (ix2 r (0 : Fin 1))) (hW : ∀ k : Fin 128, Wb (ix2 k q) = W (ix2 k q)) :
    mid Mb SIb Bb SOb Wb p q = mid M SI B SO W r q := by
  unfold mid
  refine Finset.sum_congr rfl fun k _ => ?_
  rw [hM k, hSI, hB k, hSO, hW k]

theorem last_rows {R R' D : Nat} {Mb : (⟨2, ![R', 128]⟩ : Shape).Idx → EReal} {SIb : (⟨2, ![R', 1]⟩ : Shape).Idx → EReal}
    {Bb : (⟨2, ![1, 128]⟩ : Shape).Idx → EReal} {Wb : (⟨2, ![128, D]⟩ : Shape).Idx → EReal} {Cb : (⟨2, ![1, D]⟩ : Shape).Idx → EReal}
    {M : (⟨2, ![R, 128]⟩ : Shape).Idx → EReal} {SI : (⟨2, ![R, 1]⟩ : Shape).Idx → EReal}
    {B : (⟨2, ![1, 128]⟩ : Shape).Idx → EReal} {W : (⟨2, ![128, D]⟩ : Shape).Idx → EReal}
    {C : (⟨2, ![1, D]⟩ : Shape).Idx → EReal} (p : Fin R') (r : Fin R) (q : Fin D)
    (hM : ∀ k : Fin 128, Mb (ix2 p k) = M (ix2 r k)) (hSI : SIb (ix2 p (0 : Fin 1)) = SI (ix2 r (0 : Fin 1)))
    (hB : ∀ k : Fin 128, Bb (ix2 (0 : Fin 1) k) = B (ix2 (0 : Fin 1) k))
    (hW : ∀ k : Fin 128, Wb (ix2 k q) = W (ix2 k q)) (hC : Cb (ix2 (0 : Fin 1) q) = C (ix2 (0 : Fin 1) q)) :
    last Mb SIb Bb Wb Cb p q = last M SI B W C r q := by
  unfold last
  rw [hC]
  refine congrArg (· + C (ix2 (0 : Fin 1) q)) (Finset.sum_congr rfl fun k _ => ?_)
  rw [hM k, hSI, hB k, hW k]

/-- A column `[a, 1]` broadcast along the rows' entries: at `(p, c)` it is the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv

end
-- ==== Proof.KPay.lean ====
/-
  What each kernel body stores, read at an entry, over the extended reals: the three bodies' stored values are the
  row-wise stages `lin`, `mid`, `last` of the blocks they load. A change of float format is the identity, the
  matrix unit's product into a zero accumulator is the plain sum over the contracted axis, a column `[rows, 1]`
  broadcast along a row is that row's one entry, and a row `[1, n]` broadcast down the rows is that row.
-/
import proofs.«143690_j72078141162181_1_alg».proof.Proof.Gen.KernelIdeal.Skeleton
import proofs.«143690_j72078141162181_1_alg».proof.Proof.Rows

noncomputable section

namespace Cert.KernelIdeal.Pay

open Cert.KernelIdeal Cert.KernelIdeal.Gen Cert.GraphConv
open Idealize.ShloMosaic Idealize.ShloMosaic.ValueIdx

/-! ## The two matrix products, at an entry -/

theorem dotA_lhs0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem dotA_lhs1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem dotA_rhs0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem dotA_rhs1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A block of 10000 rows times a 128 × 128 matrix, into zeros: entry `(p, q)` is the sum over the 128 columns. -/
theorem matmulA_apply (A : FVec Ideal S10000x128 .bf16) (B : FVec Ideal S128x128 .bf16) (p : Fin 10000) (q : Fin 128) :
    matmul dot_S10000x128_S128x128_S10000x128_1_0_0_1_n_n none A B (constant (F := Ideal) S10000x128 .f32 0x00000000#32) (ix2 p q)
      = ∑ k : Fin 128, A (ix2 p k) * B (ix2 k q) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact dotA_lhs0 _ _
    | ⟨1, _⟩ => exact (dotA_lhs1 _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (dotA_rhs0 _ _).trans hk
    | ⟨1, _⟩ => exact dotA_rhs1 _ _)
  rw [el, er]

theorem dotB_lhs0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem dotB_lhs1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem dotB_rhs0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem dotB_rhs1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- A block of 10000 rows times the 128 × 64 projection, into zeros: entry `(p, q)` is the sum over the 128 columns. -/
theorem matmulB_apply (A : FVec Ideal S10000x128 .bf16) (B : FVec Ideal S128x64 .bf16) (p : Fin 10000) (q : Fin 64) :
    matmul dot_S10000x128_S128x64_S10000x64_1_0_0_1_n_n none A B (constant (F := Ideal) S10000x64 .f32 0x00000000#32) (ix2 p q)
      = ∑ k : Fin 128, A (ix2 p k) * B (ix2 k q) := by
  simp only [matmul]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ix2 p q) ((ValueIdx.contrEquiv1 dot_S10000x128_S128x64_S10000x64_1_0_0_1_n_n 128 rfl rfl).symm k) = ix2 p k := funext fun a => Fin.ext (by
    match a with
    | ⟨0, _⟩ => exact dotB_lhs0 _ _
    | ⟨1, _⟩ => exact (dotB_lhs1 _ _).trans hk)
  have er : dot_S10000x128_S128x64_S10000x64_1_0_0_1_n_n.rhsIdx (ix2 p q) ((ValueIdx.contrEquiv1 dot_S10000x128_S128x64_S10000x64_1_0_0_1_n_n 128 rfl rfl).symm k) = ix2 k q := funext fun a => Fin.ext (by
    match a with
    | ⟨0, _⟩ => exact (dotB_rhs0 _ _).trans hk
    | ⟨1, _⟩ => exact dotB_rhs1 _ _)
  rw [el, er]

/-! ## The three stored values -/

/-- The first body stores the scaled rows times the weights. -/
theorem pay0_apply (x0 : Vec Ideal S10000x128 .f32) (x1 : Vec Ideal S10000x1 .f32) (x2 : Vec Ideal S128x128 .f32)
    (p : Fin 10000) (q : Fin 128) :
    k0_pay1 (F := Ideal) x0 x1 x2 (ix2 p q) = lin x0 x1 x2 p q := by
  unfold k0_pay1
  refine (matmulA_apply _ _ p q).trans ?_
  unfold lin
  refine Finset.sum_congr rfl fun k _ => ?_
  simp only [truncf_apply, mulf_apply, shapeCast_self, broadcastTo_a1_ab_apply]

/-- The second body stores the first layer's output rows (scaled, biased, clamped at zero), scaled for the second
    layer, times its weights. -/
theorem pay1_apply (x0 : Vec Ideal S10000x128 .f32) (x1 : Vec Ideal S10000x1 .f32) (x2 : Vec Ideal S1x128 .f32)
    (x3 : Vec Ideal S10000x1 .f32) (x4 : Vec Ideal S128x128 .f32) (p : Fin 10000) (q : Fin 128) :
    k1_pay1 (F := Ideal) x0 x1 x2 x3 x4 (ix2 p q) = mid x0 x1 x2 x3 x4 p q := by
  unfold k1_pay1
  refine (matmulA_apply _ _ p q).trans ?_
  unfold mid
  refine Finset.sum_congr rfl fun k _ => ?_
  simp only [truncf_apply, mulf_apply, maximumf_apply, addf_apply, shapeCast_self, broadcastTo_a1_ab_apply,
    broadcastTo_1b_ab_apply, broadcast_apply]
  rfl

/-- The third body stores the second layer's output rows (scaled, biased) times the projection, plus its bias. -/
theorem pay2_apply (x0 : Vec Ideal S10000x128 .f32) (x1 : Vec Ideal S10000x1 .f32) (x2 : Vec Ideal S1x128 .f32)
    (x3 : Vec Ideal S128x64 .f32) (x4 : Vec Ideal S1x64 .f32) (p : Fin 10000) (q : Fin 64) :
    k2_pay1 (F := Ideal) x0 x1 x2 x3 x4 (ix2 p q) = last x0 x1 x2 x3 x4 p q := by
  unfold k2_pay1
  refine (addf_apply _ _ _).trans ?_
  unfold last
  refine congrArg₂ (· + ·) ((matmulB_apply _ _ p q).trans (Finset.sum_congr rfl fun k _ => ?_)) ?_
  · simp only [truncf_apply, mulf_apply, addf_apply, shapeCast_self, broadcastTo_a1_ab_apply, broadcastTo_1b_ab_apply]
  · simp only [shapeCast_self, broadcastTo_1b_ab_apply]

end Cert.KernelIdeal.Pay

end
-- ==== Proof.KBlock0.lean ====
/-
  The first pallas_call's result array, whatever the buffers hold when it is entered: the five blocks of 10000 rows
  it writes back are the five row blocks of ONE array, the node table's rows scaled by their out-degree factors and
  multiplied by the first weights, and they tile the 50000 rows.
-/
import proofs.«143690_j72078141162181_1_alg».proof.Proof.Gen.KernelIdeal.Frame
import proofs.«143690_j72078141162181_1_alg».proof.Proof.KPay
import Idealize.ShloMosaic.Lib.Pipeline.Value

set_option maxRecDepth 16384

noncomputable section

namespace Cert.KernelIdeal.Block0

open Cert.KernelIdeal Cert.KernelIdeal.Gen Cert.KernelIdeal.Pay Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the node table, the degree column and the result move down one block of rows per
    point; the weights stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The array the result ends holding, from the arrays the region finds. -/
def result (c : Dev nD) : S50000x128.Idx → EReal :=
  ofEntries (lin (V c main_arg0 : S50000x128.Idx → EReal) (V c main_v10 : S50000x1.Idx → EReal) (V c main_arg3 : S128x128.Idx → EReal))

/-- What point `t` writes back is rows `10000 t … 10000 t + 9999` of that array. -/
theorem flushed_eq (c : Dev nD) (t : Fin cfg0.N) :
    (dat0 V c).flushed 3 t = ((cfg0.win 3).blk t).view.read (Elt Ideal) (result V c) := by
  show (cfg0.win 3).cut (grid0.coords t) ((dat0 V c).after 3 t) = _
  rw [after0_3]
  unfold out0_3
  rw [View.canon_unit_zero hz]
  simp only [View.ld_unit_zero (S := S10000x128) hz, View.ld_unit_zero (S := S10000x1) hz, View.ld_unit_zero (S := S128x128) hz]
  obtain ⟨e00, e01, e10, e11, e20, e21, e30, e31⟩ := idx_facts t
  have hN : cfg0.N = 5 := N_0
  have ht : t.val < 5 := hN ▸ t.isLt
  funext j
  obtain ⟨p, q, rfl⟩ : ∃ (p : Fin 10000) (q : Fin 128), j = ix2 p q := ⟨j 0, j 1, eq_ix2 j⟩
  have hr : t.val * 10000 + p.val < 50000 := by have := p.isLt; omega
  show k0_pay1 (iblk0 V c 0 t) (iblk0 V c 1 t) (iblk0 V c 2 t) (ix2 p q) = result V c (((cfg0.win 3).blk t).view.emb (ix2 p q))
  have hemb : ((cfg0.win 3).blk t).view.emb (ix2 p q) = ix2 (⟨t.val * 10000 + p.val, hr⟩ : Fin 50000) q := by
    funext a; apply Fin.ext
    match a with
    | ⟨0, _⟩ => show win0_3.index t (0 : Fin 2) * 10000 + 1 * p.val = t.val * 10000 + p.val; omega
    | ⟨1, _⟩ => show win0_3.index t (1 : Fin 2) * 128 + 1 * q.val = q.val; omega
  rw [hemb]
  unfold result
  rw [ofEntries_ix2]
  refine (pay0_apply _ _ _ p q).trans ?_
  refine lin_rows p _ q (fun k => ?_) ?_ (fun k => ?_)
  · show V c main_arg0 (((cfg0.win 0).blk t).view.emb (ix2 p k)) = V c main_arg0 _
    refine congrArg (V c main_arg0) ?_
    funext a; apply Fin.ext
    match a with
    | ⟨0, _⟩ => show win0_0.index t (0 : Fin 2) * 10000 + 1 * p.val = t.val * 10000 + p.val; omega
    | ⟨1, _⟩ => show win0_0.index t (1 : Fin 2) * 128 + 1 * k.val = k.val; omega
  · show V c main_v10 (((cfg0.win 1).blk t).view.emb (ix2 p (0 : Fin 1))) = V c main_v10 _
    refine congrArg (V c main_v10) ?_
    funext a; apply Fin.ext
    match a with
    | ⟨0, _⟩ => show win0_1.index t (0 : Fin 2) * 10000 + 1 * p.val = t.val * 10000 + p.val; omega
    | ⟨1, _⟩ => show win0_1.index t (1 : Fin 2) * 1 + 1 * 0 = 0; omega
  · show V c main_arg3 (((cfg0.win 2).blk t).view.emb (ix2 k q)) = V c main_arg3 _
    refine congrArg (V c main_arg3) ?_
    funext a; apply Fin.ext
    match a with
    | ⟨0, _⟩ => show win0_2.index t (0 : Fin 2) * 128 + 1 * k.val = k.val; omega
    | ⟨1, _⟩ => show win0_2.index t (1 : Fin 2) * 128 + 1 * q.val = q.val; omega

/-- An index of the result is in point `t`'s block iff its row is among the block's rows. -/
theorem mem_blk (t : Fin cfg0.N) (i : S50000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v13).slice (win0_3.rect t)).set ↔ _
  rw [View.set_slice_whole, Rect.mem_set_unit]
  exact Iff.rfl

/-- Row `r` is written by point `r / 10000`. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 5 := N_0
  let t : Fin cfg0.N := ⟨(i 0).val / 10000, by rw [hN]; omega⟩
  obtain ⟨e00, e01, e10, e11, e20, e21, e30, e31⟩ := idx_facts t
  refine ⟨t, flush0_3 t, ?_⟩
  rw [mem_blk]
  intro a
  have htv : t.val = (i 0).val / 10000 := rfl
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- The result array after the region. -/
theorem final (c : Dev nD) : (dat0 V c).arrAt 3 cfg0.N = result V c :=
  (dat0 V c).arrAt_eq_of_cover 3 (result V c) (fun t _ => flushed_eq V c t) cover

end Cert.KernelIdeal.Block0

end
-- ==== Proof.KBlock1.lean ====
/-
  The second pallas_call's result array, whatever the buffers hold when it is entered: the five blocks of 10000
  rows it writes back are the five row blocks of ONE array — the aggregated rows scaled by their in-degree factors,
  biased, clamped below at zero, scaled by their out-degree factors and multiplied by the second weights — and they
  tile the 50000 rows.
-/
import proofs.«143690_j72078141162181_1_alg».proof.Proof.Gen.KernelIdeal.Frame
import proofs.«143690_j72078141162181_1_alg».proof.Proof.KPay
import Idealize.ShloMosaic.Lib.Pipeline.Value

set_option maxRecDepth 16384

noncomputable section

namespace Cert.KernelIdeal.Block1

open Cert.KernelIdeal Cert.KernelIdeal.Gen Cert.KernelIdeal.Pay Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the aggregated table, the two degree columns and the result move down one block of
    rows per point; the bias row and the weights stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The array the result ends holding, from the arrays the region finds. -/
def result (c : Dev nD) : S50000x128.Idx → EReal :=
  ofEntries (mid (V c main_v23 : S50000x128.Idx → EReal) (V c main_v12 : S50000x1.Idx → EReal) (V c main_v24 : S1x128.Idx → EReal)
    (V c main_v10 : S50000x1.Idx → EReal) (V c main_arg5 : S128x128.Idx → EReal))

/-- What point `t` writes back is rows `10000 t … 10000 t + 9999` of that array. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero hz]
  simp only [View.ld_unit_zero (S := S10000x128) hz, View.ld_unit_zero (S := S10000x1) hz, View.ld_unit_zero (S := S1x128) hz,
    View.ld_unit_zero (S := S128x128) hz]
  obtain ⟨e00, e01, e10, e11, e20, e21, e30, e31, e40, e41, e50, e51⟩ := idx_facts t
  have hN : cfg1.N = 5 := N_1
  have ht : t.val < 5 := hN ▸ t.isLt
  funext j
  obtain ⟨p, q, rfl⟩ : ∃ (p : Fin 10000) (q : Fin 128), j = ix2 p q := ⟨j 0, j 1, eq_ix2 j⟩
  have hr : t.val * 10000 + p.val < 50000 := by have := p.isLt; omega
  show k1_pay1 (iblk1 V c 0 t) (iblk1 V c 1 t) (iblk1 V c 2 t) (iblk1 V c 3 t) (iblk1 V c 4 t) (ix2 p q) = result V c (((cfg1.win 5).blk t).view.emb (ix2 p q))
  have hemb : ((cfg1.win 5).blk t).view.emb (ix2 p q) = ix2 (⟨t.val * 10000 + p.val, hr⟩ : Fin 50000) q := by
    funext a; apply Fin.ext
    match a with
    | ⟨0, _⟩ => show win1_5.index t (0 : Fin 2) * 10000 + 1 * p.val = t.val * 10000 + p.val; omega
    | ⟨1, _⟩ => show win1_5.index t (1 : Fin 2) * 128 + 1 * q.val = q.val; omega
  rw [hemb]
  unfold result
  rw [ofEntries_ix2]
  refine (pay1_apply _ _ _ _ _ p q).trans ?_
  refine mid_rows p _ q (fun k => ?_) ?_ (fun k => ?_) ?_ (fun k => ?_)
  · show V c main_v23 (((cfg1.win 0).blk t).view.emb (ix2 p k)) = V c main_v23 _
    refine congrArg (V c main_v23) ?_
    funext a; apply Fin.ext
    match a with
    | ⟨0, _⟩ => show win1_0.index t (0 : Fin 2) * 10000 + 1 * p.val = t.val * 10000 + p.val; omega
    | ⟨1, _⟩ => show win1_0.index t (1 : Fin 2) * 128 + 1 * k.val = k.val; omega
  · show V c main_v12 (((cfg1.win 1).blk t).view.emb (ix2 p (0 : Fin 1))) = V c main_v12 _
    refine congrArg (V c main_v12) ?_
    funext a; apply Fin.ext
    match a with
    | ⟨0, _⟩ => show win1_1.index t (0 : Fin 2) * 10000 + 1 * p.val = t.val * 10000 + p.val; omega
    | ⟨1, _⟩ => show win1_1.index t (1 : Fin 2) * 1 + 1 * 0 = 0; omega
  · show V c main_v24 (((cfg1.win 2).blk t).view.emb (ix2 (0 : Fin 1) k)) = V c main_v24 _
    refine congrArg (V c main_v24) ?_
    funext a; apply Fin.ext
    match a with
    | ⟨0, _⟩ => show win1_2.index t (0 : Fin 2) * 1 + 1 * 0 = 0; omega
    | ⟨1, _⟩ => show win1_2.index t (1 : Fin 2) * 128 + 1 * k.val = k.val; omega
  · show V c main_v10 (((cfg1.win 3).blk t).view.emb (ix2 p (0 : Fin 1))) = V c main_v10 _
    refine congrArg (V c main_v10) ?_
    funext a; apply Fin.ext
    match a with
    | ⟨0, _⟩ => show win1_3.index t (0 : Fin 2) * 10000 + 1 * p.val = t.val * 10000 + p.val; omega
    | ⟨1, _⟩ => show win1_3.index t (1 : Fin 2) * 1 + 1 * 0 = 0; omega
  · show V c main_arg5 (((cfg1.win 4).blk t).view.emb (ix2 k q)) = V c main_arg5 _
    refine congrArg (V c main_arg5) ?_
    funext a; apply Fin.ext
    match a with
    | ⟨0, _⟩ => show win1_4.index t (0 : Fin 2) * 128 + 1 * k.val = k.val; omega
    | ⟨1, _⟩ => show win1_4.index t (1 : Fin 2) * 128 + 1 * q.val = q.val; omega

/-- An index of the result is in point `t`'s block iff its row is among the block's rows. -/
theorem mem_blk (t : Fin cfg1.N) (i : S50000x128.Idx) :
    i ∈ ((cfg1.win 5).blk t).view.set ↔ ∀ a : Fin 2, win1_5.index t a * S10000x128.size a ≤ (i a).val ∧ (i a).val < win1_5.index t a * S10000x128.size a + S10000x128.size a := by
  show i ∈ ((View.whole main_v25).slice (win1_5.rect t)).set ↔ _
  rw [View.set_slice_whole, Rect.mem_set_unit]
  exact Iff.rfl

/-- Row `r` is written by point `r / 10000`. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 5 := N_1
  let t : Fin cfg1.N := ⟨(i 0).val / 10000, by rw [hN]; omega⟩
  obtain ⟨e00, e01, e10, e11, e20, e21, e30, e31, e40, e41, e50, e51⟩ := idx_facts t
  refine ⟨t, flush1_5 t, ?_⟩
  rw [mem_blk]
  intro a
  have htv : t.val = (i 0).val / 10000 := rfl
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 128 ≤ (i 1).val ∧ (i 1).val < win1_5.index t (1 : Fin 2) * 128 + 128; omega

/-- The result array after the region. -/
theorem final (c : Dev nD) : (dat1 V c).arrAt 5 cfg1.N = result V c :=
  (dat1 V c).arrAt_eq_of_cover 5 (result V c) (fun t _ => flushed_eq V c t) cover

end Cert.KernelIdeal.Block1

end
-- ==== Proof.KBlock2.lean ====
/-
  The third pallas_call's result array, whatever the buffers hold when it is entered: the five blocks of 10000 rows
  it writes back are the five row blocks of ONE array — the aggregated rows scaled by their in-degree factors and
  biased, multiplied by the projection, plus the last bias — and they tile the 50000 rows.
-/
import proofs.«143690_j72078141162181_1_alg».proof.Proof.Gen.KernelIdeal.Frame
import proofs.«143690_j72078141162181_1_alg».proof.Proof.KPay
import Idealize.ShloMosaic.Lib.Pipeline.Value

set_option maxRecDepth 16384

noncomputable section

namespace Cert.KernelIdeal.Block2

open Cert.KernelIdeal Cert.KernelIdeal.Gen Cert.KernelIdeal.Pay Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the aggregated table, the degree column and the result move down one block of rows
    per point; the two bias rows and the projection stay. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The array the result ends holding, from the arrays the region finds. -/
def result (c : Dev nD) : S50000x64.Idx → EReal :=
  ofEntries (last (V c main_v35 : S50000x128.Idx → EReal) (V c main_v12 : S50000x1.Idx → EReal) (V c main_v36 : S1x128.Idx → EReal)
    (V c main_arg7 : S128x64.Idx → EReal) (V c main_v37 : S1x64.Idx → EReal))

/-- What point `t` writes back is rows `10000 t … 10000 t + 9999` of that array. -/
theorem flushed_eq (c : Dev nD) (t : Fin cfg2.N) :
    (dat2 V c).flushed 5 t = ((cfg2.win 5).blk t).view.read (Elt Ideal) (result V c) := by
  show (cfg2.win 5).cut (grid2.coords t) ((dat2 V c).after 5 t) = _
  rw [after2_5]
  unfold out2_5
  rw [View.canon_unit_zero hz]
  simp only [View.ld_unit_zero (S := S10000x128) hz, View.ld_unit_zero (S := S10000x1) hz, View.ld_unit_zero (S := S1x128) hz,
    View.ld_unit_zero (S := S128x64) hz, View.ld_unit_zero (S := S1x64) hz]
  obtain ⟨e00, e01, e10, e11, e20, e21, e30, e31, e40, e41, e50, e51⟩ := idx_facts t
  have hN : cfg2.N = 5 := N_2
  have ht : t.val < 5 := hN ▸ t.isLt
  funext j
  obtain ⟨p, q, rfl⟩ : ∃ (p : Fin 10000) (q : Fin 64), j = ix2 p q := ⟨j 0, j 1, eq_ix2 j⟩
  have hr : t.val * 10000 + p.val < 50000 := by have := p.isLt; omega
  show k2_pay1 (iblk2 V c 0 t) (iblk2 V c 1 t) (iblk2 V c 2 t) (iblk2 V c 3 t) (iblk2 V c 4 t) (ix2 p q) = result V c (((cfg2.win 5).blk t).view.emb (ix2 p q))
  have hemb : ((cfg2.win 5).blk t).view.emb (ix2 p q) = ix2 (⟨t.val * 10000 + p.val, hr⟩ : Fin 50000) q := by
    funext a; apply Fin.ext
    match a with
    | ⟨0, _⟩ => show win2_5.index t (0 : Fin 2) * 10000 + 1 * p.val = t.val * 10000 + p.val; omega
    | ⟨1, _⟩ => show win2_5.index t (1 : Fin 2) * 64 + 1 * q.val = q.val; omega
  rw [hemb]
  unfold result
  rw [ofEntries_ix2]
  refine (pay2_apply _ _ _ _ _ p q).trans ?_
  refine last_rows p _ q (fun k => ?_) ?_ (fun k => ?_) (fun k => ?_) ?_
  · show V c main_v35 (((cfg2.win 0).blk t).view.emb (ix2 p k)) = V c main_v35 _
    refine congrArg (V c main_v35) ?_
    funext a; apply Fin.ext
    match a with
    | ⟨0, _⟩ => show win2_0.index t (0 : Fin 2) * 10000 + 1 * p.val = t.val * 10000 + p.val; omega
    | ⟨1, _⟩ => show win2_0.index t (1 : Fin 2) * 128 + 1 * k.val = k.val; omega
  · show V c main_v12 (((cfg2.win 1).blk t).view.emb (ix2 p (0 : Fin 1))) = V c main_v12 _
    refine congrArg (V c main_v12) ?_
    funext a; apply Fin.ext
    match a with
    | ⟨0, _⟩ => show win2_1.index t (0 : Fin 2) * 10000 + 1 * p.val = t.val * 10000 + p.val; omega
    | ⟨1, _⟩ => show win2_1.index t (1 : Fin 2) * 1 + 1 * 0 = 0; omega
  · show V c main_v36 (((cfg2.win 2).blk t).view.emb (ix2 (0 : Fin 1) k)) = V c main_v36 _
    refine congrArg (V c main_v36) ?_
    funext a; apply Fin.ext
    match a with
    | ⟨0, _⟩ => show win2_2.index t (0 : Fin 2) * 1 + 1 * 0 = 0; omega
    | ⟨1, _⟩ => show win2_2.index t (1 : Fin 2) * 128 + 1 * k.val = k.val; omega
  · show V c main_arg7 (((cfg2.win 3).blk t).view.emb (ix2 k q)) = V c main_arg7 _
    refine congrArg (V c main_arg7) ?_
    funext a; apply Fin.ext
    match a with
    | ⟨0, _⟩ => show win2_3.index t (0 : Fin 2) * 128 + 1 * k.val = k.val; omega
    | ⟨1, _⟩ => show win2_3.index t (1 : Fin 2) * 64 + 1 * q.val = q.val; omega
  · show V c main_v37 (((cfg2.win 4).blk t).view.emb (ix2 (0 : Fin 1) q)) = V c main_v37 _
    refine congrArg (V c main_v37) ?_
    funext a; apply Fin.ext
    match a with
    | ⟨0, _⟩ => show win2_4.index t (0 : Fin 2) * 1 + 1 * 0 = 0; omega
    | ⟨1, _⟩ => show win2_4.index t (1 : Fin 2) * 64 + 1 * q.val = q.val; omega

/-- An index of the result is in point `t`'s block iff its row is among the block's rows. -/
theorem mem_blk (t : Fin cfg2.N) (i : S50000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v38).slice (win2_5.rect t)).set ↔ _
  rw [View.set_slice_whole, Rect.mem_set_unit]
  exact Iff.rfl

/-- Row `r` is written by point `r / 10000`. -/
theorem cover (i : S50000x64.Idx) : ∃ t : Fin cfg2.N, (cfg2.win 5).flush t = true ∧ i ∈ ((cfg2.win 5).blk t).view.set := by
  have hi0 : (i 0).val < 50000 := (i 0).isLt
  have hi1 : (i 1).val < 64 := (i 1).isLt
  have hN : cfg2.N = 5 := N_2
  let t : Fin cfg2.N := ⟨(i 0).val / 10000, by rw [hN]; omega⟩
  obtain ⟨e00, e01, e10, e11, e20, e21, e30, e31, e40, e41, e50, e51⟩ := idx_facts t
  refine ⟨t, flush2_5 t, ?_⟩
  rw [mem_blk]
  intro a
  have htv : t.val = (i 0).val / 10000 := rfl
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 64 ≤ (i 1).val ∧ (i 1).val < win2_5.index t (1 : Fin 2) * 64 + 64; omega

/-- The result array after the region. -/
theorem final (c : Dev nD) : (dat2 V c).arrAt 5 cfg2.N = result V c :=
  (dat2 V c).arrAt_eq_of_cover 5 (result V c) (fun t _ => flushed_eq V c t) cover

end Cert.KernelIdeal.Block2

end
-- ==== Proof.RefStages.lean ====
/-
  The reference's three dense stages are the row-wise stages `lin`, `mid`, `last`: the host's contraction of a
  `[50000, 128]` array with a weight matrix is, entry by entry, the sum over the 128 columns, and each broadcast
  of a degree column or a bias row reads the one entry it repeats.
-/
import proofs.«143690_j72078141162181_1_alg».proof.Proof.Gen.ReferenceIdeal.Read
import proofs.«143690_j72078141162181_1_alg».proof.Proof.Rows

noncomputable section

namespace Cert.ReferenceIdeal.Stages

open Cert.ReferenceIdeal Cert.ReferenceIdeal.Read Cert.GraphConv
open Idealize.ShloMosaic Idealize.ShloMosaic.ValueIdx

variable (x0 : (⟨S50000x128, .f32⟩ : BufTy).Contents (Elt Ideal)) (x1 x2 : (⟨S1600000, .i32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))
  (x7 : (⟨S128x64, .f32⟩ : BufTy).Contents (Elt Ideal)) (x8 : (⟨S64, .f32⟩ : BufTy).Contents (Elt Ideal))

/-- The first layer before aggregation: the node table's rows scaled by the out-degree factors, times the weights. -/
theorem stage1 : val_main_v13 (F := Ideal) x0 x1 x3
    = ofEntries (lin (x0 : S50000x128.Idx → EReal) (val_main_v10 (F := Ideal) x1 : S50000x1.Idx → EReal) (x3 : S128x128.Idx → EReal)) := by
  funext i
  obtain ⟨r, q, rfl⟩ : ∃ (r : Fin 50000) (q : Fin 128), i = ix2 r q := ⟨i 0, i 1, eq_ix2 i⟩
  rw [val_main_v13_apply, ofEntries_ix2]
  unfold lin
  refine Finset.sum_congr rfl fun k _ => ?_
  have e1 : lidx_main_v13 (ix2 r q) k = ix2 r k := funext fun a => by match a with | ⟨0, _⟩ => rfl | ⟨1, _⟩ => rfl
  have e2 : ridx_main_v13 (ix2 r q) k = ix2 k q := funext fun a => by match a with | ⟨0, _⟩ => rfl | ⟨1, _⟩ => rfl
  have e3 : idx_main_v11 (ix2 r k) = ix2 r (0 : Fin 1) := funext fun a => by match a with | ⟨0, _⟩ => rfl | ⟨1, _⟩ => rfl
  rw [e1, e2, val_main_v12_apply, val_main_v11_apply, e3]
  rfl

/-- The first layer after aggregation (scaled by the in-degree factors, biased, clamped at zero), scaled for the
    second layer, times its weights. -/
theorem stage2 : val_main_v45 (F := Ideal) x0 x1 x2 x3 x4 x5
    = ofEntries (mid (val_main_v23 (F := Ideal) x0 x1 x2 x3 : S50000x128.Idx → EReal) (val_main_v25 (F := Ideal) x2 : S50000x1.Idx → EReal)
        (val_main_v28 (F := Ideal) x4 : S1x128.Idx → EReal) (val_main_v42 (F := Ideal) x1 : S50000x1.Idx → EReal) (x5 : S128x128.Idx → EReal)) := by
  funext i
  obtain ⟨r, q, rfl⟩ : ∃ (r : Fin 50000) (q : Fin 128), i = ix2 r q := ⟨i 0, i 1, eq_ix2 i⟩
  rw [val_main_v45_apply, ofEntries_ix2]
  unfold mid
  refine Finset.sum_congr rfl fun k _ => ?_
  have e1 : lidx_main_v45 (ix2 r q) k = ix2 r k := funext fun a => by match a with | ⟨0, _⟩ => rfl | ⟨1, _⟩ => rfl
  have e2 : ridx_main_v45 (ix2 r q) k = ix2 k q := funext fun a => by match a with | ⟨0, _⟩ => rfl | ⟨1, _⟩ => rfl
  have e3 : idx_main_v43 (ix2 r k) = ix2 r (0 : Fin 1) := funext fun a => by match a with | ⟨0, _⟩ => rfl | ⟨1, _⟩ => rfl
  have e4 : idx_main_v26 (ix2 r k) = ix2 r (0 : Fin 1) := funext fun a => by match a with | ⟨0, _⟩ => rfl | ⟨1, _⟩ => rfl
  have e5 : idx_main_v29 (ix2 r k) = ix2 (0 : Fin 1) k := funext fun a => by match a with | ⟨0, _⟩ => rfl | ⟨1, _⟩ => rfl
  rw [e1, e2, val_main_v44_apply, val_main_v43_apply, e3, val_main_v31_apply, val_main_v30_apply, val_main_v27_apply,
    val_main_v26_apply, e4, val_main_v29_apply, e5, val_main_call2_v0_apply, val_main_call2_cst_apply]
  rfl

/-- The second layer after aggregation (scaled, biased), times the projection, plus the last bias. -/
theorem stage3 : val_main_v66 (F := Ideal) x0 x1 x2 x3 x4 x5 x6 x7 x8
    = ofEntries (last (val_main_v55 (F := Ideal) x0 x1 x2 x3 x4 x5 : S50000x128.Idx → EReal) (val_main_v57 (F := Ideal) x2 : S50000x1.Idx → EReal)
        (val_main_v60 (F := Ideal) x6 : S1x128.Idx → EReal) (x7 : S128x64.Idx → EReal) (val_main_v64 (F := Ideal) x8 : S1x64.Idx → EReal)) := by
  funext i
  obtain ⟨r, q, rfl⟩ : ∃ (r : Fin 50000) (q : Fin 64), i = ix2 r q := ⟨i 0, i 1, eq_ix2 i⟩
  rw [val_main_v66_apply, val_main_v63_apply, ofEntries_ix2]
  unfold last
  have e6 : idx_main_v65 (ix2 r q) = ix2 (0 : Fin 1) q := funext fun a => by match a with | ⟨0, _⟩ => rfl | ⟨1, _⟩ => rfl
  rw [val_main_v65_apply, e6]
  refine congrArg (· + val_main_v64 (F := Ideal) x8 (ix2 (0 : Fin 1) q)) (Finset.sum_congr rfl fun k _ => ?_)
  have e1 : lidx_main_v63 (ix2 r q) k = ix2 r k := funext fun a => by match a with | ⟨0, _⟩ => rfl | ⟨1, _⟩ => rfl
  have e2 : ridx_main_v63 (ix2 r q) k = ix2 k q := funext fun a => by match a with | ⟨0, _⟩ => rfl | ⟨1, _⟩ => rfl
  have e4 : idx_main_v58 (ix2 r k) = ix2 r (0 : Fin 1) := funext fun a => by match a with | ⟨0, _⟩ => rfl | ⟨1, _⟩ => rfl
  have e5 : idx_main_v61 (ix2 r k) = ix2 (0 : Fin 1) k := funext fun a => by match a with | ⟨0, _⟩ => rfl | ⟨1, _⟩ => rfl
  rw [e1, e2, val_main_v62_apply, val_main_v59_apply, val_main_v58_apply, e4, val_main_v61_apply, e5]
  rfl

end Cert.ReferenceIdeal.Stages

end
-- ==== Proof.Bridge.lean ====
/-
  The idealized kernel's result, stage by stage, is the reference's result of the launch arrays.

  Between the pallas_calls both programs run the SAME host operations (negative node indices wrapped, the rows of the
  node table gathered along the edges, scatter-added at the destination nodes); those are never opened: each is applied
  on both sides to arrays already shown equal. Each pallas_call's result array is the reference's dense stage of the
  same inputs (the row blocks tile the table; the row-wise stage on a block is the block of the stage), and the two
  bias rows, which the kernel reshapes `[n] → [1, n]` where the reference broadcasts, hold the same entries.
-/
import proofs.«143690_j72078141162181_1_alg».proof.Proof.KEntry
import proofs.«143690_j72078141162181_1_alg».proof.Proof.KBlock0
import proofs.«143690_j72078141162181_1_alg».proof.Proof.KBlock1
import proofs.«143690_j72078141162181_1_alg».proof.Proof.KBlock2
import proofs.«143690_j72078141162181_1_alg».proof.Proof.RefStages

set_option maxRecDepth 16384

noncomputable section

namespace Cert.KernelIdeal.Bridge

open Cert.KernelIdeal Cert.KernelIdeal.Gen Cert.KernelIdeal.Entry Cert.GraphConv
open Cert.ReferenceIdeal.Read Cert.ReferenceIdeal.Stages
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg) (c : Dev nD)

/-! ## A bias row reshaped is the bias row broadcast -/

theorem row128 (x : S128.Idx → EReal) (h : S128.ShapeCasts S1x128) :
    (shapeCast S1x128 x h : S1x128.Idx → EReal) = val_main_v28 (F := Ideal) x := by
  funext i
  obtain ⟨u, k, rfl⟩ : ∃ (u : Fin 1) (k : Fin 128), i = ix2 u k := ⟨i 0, i 1, eq_ix2 i⟩
  rw [val_main_v28_apply]
  refine (ValueIdx.shapeCast_a_1a_apply x h u k).trans (congrArg x ?_)
  funext a; match a with | ⟨0, _⟩ => rfl

theorem row64 (x : S64.Idx → EReal) (h : S64.ShapeCasts S1x64) :
    (shapeCast S1x64 x h : S1x64.Idx → EReal) = val_main_v64 (F := Ideal) x := by
  funext i
  obtain ⟨u, k, rfl⟩ : ∃ (u : Fin 1) (k : Fin 64), i = ix2 u k := ⟨i 0, i 1, eq_ix2 i⟩
  rw [val_main_v64_apply]
  refine (ValueIdx.shapeCast_a_1a_apply x h u k).trans (congrArg x ?_)
  funext a; match a with | ⟨0, _⟩ => rfl

/-! ## After the first pallas_call -/

theorem W6_arg1 : W6 m ρ c (Proc.devRef .tc main_arg1) = m ((c : Thread nD τ).loc main_arg1) :=
  (W6_of_ne m ρ c main_arg1 (by decide)).trans (V5_arg1 m ρ c)
theorem W6_arg2 : W6 m ρ c (Proc.devRef .tc main_arg2) = m ((c : Thread nD τ).loc main_arg2) :=
  (W6_of_ne m ρ c main_arg2 (by decide)).trans (V5_arg2 m ρ c)
theorem W6_arg4 : W6 m ρ c (Proc.devRef .tc main_arg4) = m ((c : Thread nD τ).loc main_arg4) :=
  (W6_of_ne m ρ c main_arg4 (by decide)).trans (V5_arg4 m ρ c)
theorem W6_arg5 : W6 m ρ c (Proc.devRef .tc main_arg5) = m ((c : Thread nD τ).loc main_arg5) :=
  (W6_of_ne m ρ c main_arg5 (by decide)).trans (V5_arg5 m ρ c)
theorem W6_arg6 : W6 m ρ c (Proc.devRef .tc main_arg6) = m ((c : Thread nD τ).loc main_arg6) :=
  (W6_of_ne m ρ c main_arg6 (by decide)).trans (V5_arg6 m ρ c)
theorem W6_arg7 : W6 m ρ c (Proc.devRef .tc main_arg7) = m ((c : Thread nD τ).loc main_arg7) :=
  (W6_of_ne m ρ c main_arg7 (by decide)).trans (V5_arg7 m ρ c)
theorem W6_arg8 : W6 m ρ c (Proc.devRef .tc main_arg8) = m ((c : Thread nD τ).loc main_arg8) :=
  (W6_of_ne m ρ c main_arg8 (by decide)).trans (V5_arg8 m ρ c)
theorem W6_v12 : W6 m ρ c (Proc.devRef .tc main_v12) = val_main_v25 (F := Ideal) (m ((c : Thread nD τ).loc main_arg2)) :=
  (W6_of_ne m ρ c main_v12 (by decide)).trans (V5_v12 m ρ c)
theorem W6_v10 : W6 m ρ c (Proc.devRef .tc main_v10) = val_main_v10 (F := Ideal) (m ((c : Thread nD τ).loc main_arg1)) :=
  (W6_arr m ρ c 1).trans (((dat0 (V5 m ρ) c).arrAt_in 1 rfl _).trans ((A_eq0 (V5 m ρ) c 1).trans (V5_v10 m ρ c)))

/-- The first pallas_call leaves the reference's first dense stage. -/
theorem W6_v13 : W6 m ρ c (Proc.devRef .tc main_v13) = val_main_v13 (F := Ideal) (m ((c : Thread nD τ).loc main_arg0)) (m ((c : Thread nD τ).loc main_arg1)) (m ((c : Thread nD τ).loc main_arg3)) := by
  refine (W6_arr m ρ c 3).trans ((Block0.final (V5 m ρ) c).trans ?_)
  unfold Block0.result
  rw [V5_arg0 m ρ c, V5_v10 m ρ c, V5_arg3 m ρ c]
  exact (stage1 _ _ _).symm

/-! ## At the second pallas_call's entry, and after it -/

theorem V7_arg1 : V7 m ρ c main_arg1 = m ((c : Thread nD τ).loc main_arg1) := by
  show StableHlo.after hostOps1 (W6 m ρ c) (Proc.devRef .tc main_arg1) = _
  after_results
  exact W6_arg1 m ρ c
theorem V7_arg2 : V7 m ρ c main_arg2 = m ((c : Thread nD τ).loc main_arg2) := by
  show StableHlo.after hostOps1 (W6 m ρ c) (Proc.devRef .tc main_arg2) = _
  after_results
  exact W6_arg2 m ρ c
theorem V7_arg5 : V7 m ρ c main_arg5 = m ((c : Thread nD τ).loc main_arg5) := by
  show StableHlo.after hostOps1 (W6 m ρ c) (Proc.devRef .tc main_arg5) = _
  after_results
  exact W6_arg5 m ρ c
theorem V7_arg6 : V7 m ρ c main_arg6 = m ((c : Thread nD τ).loc main_arg6) := by
  show StableHlo.after hostOps1 (W6 m ρ c) (Proc.devRef .tc main_arg6) = _
  after_results
  exact W6_arg6 m ρ c
theorem V7_arg7 : V7 m ρ c main_arg7 = m ((c : Thread nD τ).loc main_arg7) := by
  show StableHlo.after hostOps1 (W6 m ρ c) (Proc.devRef .tc main_arg7) = _
  after_results
  exact W6_arg7 m ρ c
theorem V7_arg8 : V7 m ρ c main_arg8 = m ((c : Thread nD τ).loc main_arg8) := by
  show StableHlo.after hostOps1 (W6 m ρ c) (Proc.devRef .tc main_arg8) = _
  after_results
  exact W6_arg8 m ρ c
/-- The first layer's aggregation, the same gather and scatter-add of the same table on both sides. -/
theorem V7_v23 : V7 m ρ c main_v23 = val_main_v23 (F := Ideal) (m ((c : Thread nD τ).loc main_arg0)) (m ((c : Thread nD τ).loc main_arg1)) (m ((c : Thread nD τ).loc main_arg2)) (m ((c : Thread nD τ).loc main_arg3)) := by
  show StableHlo.after hostOps1 (W6 m ρ c) (Proc.devRef .tc main_v23) = _
  after_results
  rw [W6_v13 m ρ c, W6_arg1 m ρ c, W6_arg2 m ρ c]
  unfold val_main_v23 val_main_v20
  generalize val_main_v13 (F := Ideal) (m ((c : Thread nD τ).loc main_arg0)) (m ((c : Thread nD τ).loc main_arg1)) (m ((c : Thread nD τ).loc main_arg3)) = T
  rfl
theorem V7_v12 : V7 m ρ c main_v12 = val_main_v25 (F := Ideal) (m ((c : Thread nD τ).loc main_arg2)) := by
  show StableHlo.after hostOps1 (W6 m ρ c) (Proc.devRef .tc main_v12) = _
  after_results
  exact W6_v12 m ρ c
theorem V7_v10 : V7 m ρ c main_v10 = val_main_v42 (F := Ideal) (m ((c : Thread nD τ).loc main_arg1)) := by
  show StableHlo.after hostOps1 (W6 m ρ c) (Proc.devRef .tc main_v10) = _
  after_results
  exact (W6_v10 m ρ c).trans (outcol_again _).symm
theorem V7_v24 : V7 m ρ c main_v24 = val_main_v28 (F := Ideal) (m ((c : Thread nD τ).loc main_arg4)) := by
  show StableHlo.after hostOps1 (W6 m ρ c) (Proc.devRef .tc main_v24) = _
  after_results
  rw [W6_arg4 m ρ c]
  exact row128 _ _

/-- The second pallas_call leaves the reference's second dense stage. -/
theorem W8_v25 : W8 m ρ c (Proc.devRef .tc main_v25) = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 5).trans ((Block1.final (V7 m ρ) c).trans ?_)
  unfold Block1.result
  rw [V7_v23 m ρ c, V7_v12 m ρ c, V7_v24 m ρ c, V7_v10 m ρ c, V7_arg5 m ρ c]
  exact (stage2 _ _ _ _ _ _).symm

theorem W8_arg1 : W8 m ρ c (Proc.devRef .tc main_arg1) = m ((c : Thread nD τ).loc main_arg1) :=
  (W8_of_ne m ρ c main_arg1 (by decide)).trans (V7_arg1 m ρ c)
theorem W8_arg2 : W8 m ρ c (Proc.devRef .tc main_arg2) = m ((c : Thread nD τ).loc main_arg2) :=
  (W8_of_ne m ρ c main_arg2 (by decide)).trans (V7_arg2 m ρ c)
theorem W8_arg6 : W8 m ρ c (Proc.devRef .tc main_arg6) = m ((c : Thread nD τ).loc main_arg6) :=
  (W8_of_ne m ρ c main_arg6 (by decide)).trans (V7_arg6 m ρ c)
theorem W8_arg7 : W8 m ρ c (Proc.devRef .tc main_arg7) = m ((c : Thread nD τ).loc main_arg7) :=
  (W8_of_ne m ρ c main_arg7 (by decide)).trans (V7_arg7 m ρ c)
theorem W8_arg8 : W8 m ρ c (Proc.devRef .tc main_arg8) = m ((c : Thread nD τ).loc main_arg8) :=
  (W8_of_ne m ρ c main_arg8 (by decide)).trans (V7_arg8 m ρ c)
theorem W8_v12 : W8 m ρ c (Proc.devRef .tc main_v12) = val_main_v25 (F := Ideal) (m ((c : Thread nD τ).loc main_arg2)) :=
  (W8_arr m ρ c 1).trans (((dat1 (V7 m ρ) c).arrAt_in 1 rfl _).trans ((A_eq1 (V7 m ρ) c 1).trans (V7_v12 m ρ c)))

/-! ## At the third pallas_call's entry, and after it -/

set_option maxHeartbeats 4000000 in
/-- The second layer's aggregation, the same gather and scatter-add of the same table on both sides. -/
theorem V9_v35 : V9 m ρ c main_v35 = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W8 m ρ c) (Proc.devRef .tc main_v35) = _
  after_results
  rw [W8_v25 m ρ c, W8_arg1 m ρ c, W8_arg2 m ρ c]
  unfold val_main_v55 val_main_v52
  generalize val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = T
  rfl
theorem V9_v12 : V9 m ρ c main_v12 = val_main_v57 (F := Ideal) (m ((c : Thread nD τ).loc main_arg2)) := by
  show StableHlo.after hostOps2 (W8 m ρ c) (Proc.devRef .tc main_v12) = _
  after_results
  exact (W8_v12 m ρ c).trans (incol_again _).symm
theorem V9_v36 : V9 m ρ c main_v36 = val_main_v60 (F := Ideal) (m ((c : Thread nD τ).loc main_arg6)) := by
  show StableHlo.after hostOps2 (W8 m ρ c) (Proc.devRef .tc main_v36) = _
  after_results
  rw [W8_arg6 m ρ c]
  exact (row128 _ _).trans rfl
theorem V9_arg7 : V9 m ρ c main_arg7 = m ((c : Thread nD τ).loc main_arg7) := by
  show StableHlo.after hostOps2 (W8 m ρ c) (Proc.devRef .tc main_arg7) = _
  after_results
  exact W8_arg7 m ρ c
theorem V9_v37 : V9 m ρ c main_v37 = val_main_v64 (F := Ideal) (m ((c : Thread nD τ).loc main_arg8)) := by
  show StableHlo.after hostOps2 (W8 m ρ c) (Proc.devRef .tc main_v37) = _
  after_results
  rw [W8_arg8 m ρ c]
  exact row64 _ _

/-- The third pallas_call leaves the reference's result. -/
theorem result_eq : (dat2 (V9 m ρ) c).arrAt 5 cfg2.N
    = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (Block2.final (V9 m ρ) c).trans ?_
  unfold Block2.result
  rw [V9_v35 m ρ c, V9_v12 m ρ c, V9_v36 m ρ c, V9_arg7 m ρ c, V9_v37 m ρ c]
  exact (stage3 _ _ _ _ _ _ _ _ _).symm

end Cert.KernelIdeal.Bridge

end
-- ==== Proof.lean ====
/-
  The proof of `Cert.Claim`: a two-layer graph convolution with a final projection (out- and in-degree normalised,
  degrees clamped below at one), whose dense stages the kernel runs as three pallas_calls over blocks of 10000 rows
  between the host's gathers and scatter-adds, against the plain jnp reference.

  Over the extended reals the two programs are the same function of the nine argument arrays, stage by stage:
    s_out = (max 1 (#outgoing edges))^(-1/2),  s_in = (max 1 (#incoming edges))^(-1/2)          (host, both sides)
    P₁ = (X · s_out) W₁                         rows scaled, then the weights                    (pallas_call 1 | dot_general)
    M₁ = the rows of P₁ gathered along the edges and summed at the destination nodes             (host, both sides)
    P₂ = (max (M₁ · s_in + b₁) 0 · s_out) W₂                                                     (pallas_call 2 | dot_general)
    M₂ = the same aggregation of P₂                                                              (host, both sides)
    out = (M₂ · s_in + b₂) W_f + b_f                                                             (pallas_call 3 | dot_general)
  Each dense stage is row-wise, so the kernel's five row blocks are the five row blocks of the reference's whole-array
  stage; a change of float format is the identity and the matrix unit's product into zeros is the plain sum over the
  contracted axis. No law of arithmetic joins the two sides, and the finiteness of the inputs is never used.

  The three frames: the two kernel programs by their run through the ten segments of @main, the reference by its run
  with the result dropped. `preserves` is `True`: the idealization rewrote nothing.
-/
import proofs.«143690_j72078141162181_1_alg».proof.Defs
import proofs.«143690_j72078141162181_1_alg».proof.Proof.Gen.Kernel
import proofs.«143690_j72078141162181_1_alg».proof.Proof.Gen.Kernel.Skeleton
import proofs.«143690_j72078141162181_1_alg».proof.Proof.Gen.Kernel.Launch
import proofs.«143690_j72078141162181_1_alg».proof.Proof.Gen.Kernel.Points
import proofs.«143690_j72078141162181_1_alg».proof.Proof.Gen.Kernel.Frame
import proofs.«143690_j72078141162181_1_alg».proof.Proof.Gen.KernelIdeal
import proofs.«143690_j72078141162181_1_alg».proof.Proof.Gen.KernelIdeal.Skeleton
import proofs.«143690_j72078141162181_1_alg».proof.Proof.Gen.KernelIdeal.Launch
import proofs.«143690_j72078141162181_1_alg».proof.Proof.Gen.KernelIdeal.Points
import proofs.«143690_j72078141162181_1_alg».proof.Proof.Gen.KernelIdeal.Frame
import proofs.«143690_j72078141162181_1_alg».proof.Proof.Gen.ReferenceIdeal
import proofs.«143690_j72078141162181_1_alg».proof.Proof.Gen.ReferenceIdeal.Run
import proofs.«143690_j72078141162181_1_alg».proof.Proof.Gen.ReferenceIdeal.Read
import proofs.«143690_j72078141162181_1_alg».proof.Proof.Gen.Pre_finite_inputs
import proofs.«143690_j72078141162181_1_alg».proof.Proof.KRun
import proofs.«143690_j72078141162181_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the reference's composed term of the launch arrays: the kernel's by the
    stage-by-stage bridge, the reference's by its own run, the two launch memories agreeing on the arguments. -/
theorem algebraic : Cert.algebraic_KernelIdeal_ReferenceIdeal := by
  intro m ρ m' ρ' _ hagree
  refine ⟨fun c => Cert.ReferenceIdeal.Read.val_main_v66 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Bridge.result_eq m ρ c), (h c).2⟩)
      (Cert.KernelIdeal.Whole.run_result (F := Ideal) m ρ)
  · refine (θ_run Cert.ReferenceIdeal.defs _ _).mono (fun _ h c => ⟨?_, (h c).2⟩)
      (Cert.ReferenceIdeal.Value.run (F := Ideal) m' ρ')
    obtain ⟨a0, a1, a2, a3, a4, a5, a6, a7, a8⟩ := hagree c
    rw [(h c).1, Cert.ReferenceIdeal.Read.val_main_v66_eq, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
